-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x512 .f32) (main_arg8 : FVec F S256 .f32) (main_arg9 : FVec F S256x512 .f32) (main_arg10 : FVec F S256 .f32) (main_arg11 : FVec F S256x512 .f32) (main_arg12 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S131072x64 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S256x512 .f32) (main_arg12 : FVec F S256 .f32) (main_v13 : IVec S_ 1) (main_v16 : IVec S131072x64 1) : IVec S_ 1 :=
  let main_c_5 : IVec S_ 1 := constantI S_ 1 1#1
  let main_v17 : IVec S_ 1 := (fun x v => Host.reduce IntOp.andi x v reducesTo_S131072x64_S_d0_1 h_S_) main_v16 main_c_5
  let main_v18 : IVec S_ 1 := andi main_v13 main_v17
  let main_v19 : FVec F S131072x64 .f32 := Host.absf main_arg4
  let main_cst_6 : FVec F S_ .f32 := constant S_ .f32 0x7F800000#32
  let main_v20 : FVec F S131072x64 .f32 := broadcastInDim S131072x64 ![] bcast_S_S131072x64 main_cst_6
  let main_v21 : IVec S131072x64 1 := cmpf .olt main_v19 main_v20
  let main_c_7 : IVec S_ 1 := constantI S_ 1 1#1
  let main_v22 : IVec S_ 1 := (fun x v => Host.reduce IntOp.andi x v reducesTo_S131072x64_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x256 .f32) (main_arg1 : FVec F S131072x256 .f32) (main_arg2 : FVec F S131072x256 .f32) (main_arg3 : FVec F S131072x64 .f32) (main_arg4 : FVec F S131072x64 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S256x512 .f32) (main_arg12 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x64 .f32 := Host.absf main_arg3
  let main_cst_4 : FVec F S_ .f32 := constant S_ .f32 0x7F800000#32
  let main_v15 : FVec F S131072x64 .f32 := broadcastInDim S131072x64 ![] bcast_S_S131072x64 main_cst_4
  let main_v16 : IVec S131072x64 1 := cmpf .olt main_v14 main_v15
  fn_part1 (F := F) main_arg4 main_arg5 main_arg6 main_arg7 main_arg8 main_arg9 main_arg10 main_arg11 main_arg12 main_v13 main_v16
-- ==== Kernel.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S1024x512 : Shape := ⟨2, ![1024, 512]⟩
abbrev S512x1024 : Shape := ⟨2, ![512, 1024]⟩
abbrev S256x1024 : Shape := ⟨2, ![256, 1024]⟩
abbrev S1024 : Shape := ⟨1, ![1024]⟩
abbrev S1x1024 : Shape := ⟨2, ![1, 1024]⟩
abbrev S2048x256 : Shape := ⟨2, ![2048, 256]⟩
abbrev S2048x1024 : Shape := ⟨2, ![2048, 1024]⟩

abbrev nBuf : Space → Nat
  | .hbm => 21
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x64, .f32⟩
  | .hbm, ⟨4, _⟩ => ⟨S131072x64, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S1024x512, .f32⟩
  | .hbm, ⟨14, _⟩ => ⟨S512x1024, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S1x1024, .f32⟩
  | .hbm, ⟨19, _⟩ => ⟨S131072x256, .f32⟩
  | .hbm, ⟨20, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x512_S256x512_S256x512_S256x512_S1024x512_d0 : Shape.Concatenates [S256x512, S256x512, S256x512, S256x512] S1024x512 0
  transposes_S1024x512_S512x1024_1_0 : S1024x512.Transposes [1, 0] S512x1024
  slices_S512x1024_S256x1024_0_0 : S512x1024.Slices ![0, 0] S256x1024
  slices_S512x1024_S256x1024_256_0 : S512x1024.Slices ![256, 0] S256x1024
  concatenates_S256_S256_S256_S256_S1024_d0 : Shape.Concatenates [S256, S256, S256, S256] S1024 0
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S131072x512 : Shape := ⟨2, ![131072, 512]⟩
abbrev S1024x512 : Shape := ⟨2, ![1024, 512]⟩
abbrev S1024 : Shape := ⟨1, ![1024]⟩
abbrev S512x1024 : Shape := ⟨2, ![512, 1024]⟩
abbrev S131072x1024 : Shape := ⟨2, ![131072, 1024]⟩
abbrev S1x1024 : Shape := ⟨2, ![1, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x64, .f32⟩
  | .hbm, ⟨4, _⟩ => ⟨S131072x64, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S131072x512, .f32⟩
  | .hbm, ⟨14, _⟩ => ⟨S1024x512, .f32⟩
  | .hbm, ⟨15, _⟩ => ⟨S1024, .f32⟩
  | .hbm, ⟨16, _⟩ => ⟨S512x1024, .f32⟩
  | .hbm, ⟨17, _⟩ => ⟨S131072x1024, .f32⟩
  | .hbm, ⟨18, _⟩ => ⟨S1x1024, .f32⟩
  | .hbm, ⟨19, _⟩ => ⟨S131072x1024, .f32⟩
  | .hbm, ⟨20, _⟩ => ⟨S131072x1024, .f32⟩
  | .hbm, ⟨21, _⟩ => ⟨S131072x256, .f32⟩
  | .hbm, ⟨22, _⟩ => ⟨S131072x256, .f32⟩
  | .hbm, ⟨23, _⟩ => ⟨S131072x256, .f32⟩
  | .hbm, ⟨24, _⟩ => ⟨S131072x256, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S_, .f32⟩
  | .hbm, ⟨44, _⟩ => ⟨S131072x256, .f32⟩
  | .hbm, ⟨45, _⟩ => ⟨S131072x256, .f32⟩
  | .hbm, ⟨46, _⟩ => ⟨S_, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  concatenates_S131072x256_S131072x256_S131072x512_d1 : Shape.Concatenates [S131072x256, S131072x256] S131072x512 1
  concatenates_S256x512_S256x512_S256x512_S256x512_S1024x512_d0 : Shape.Concatenates [S256x512, S256x512, S256x512, S256x512] S1024x512 0
  concatenates_S256_S256_S256_S256_S1024_d0 : Shape.Concatenates [S256, S256, S256, S256] S1024 0
  transposes_S1024x512_S512x1024_1_0 : S1024x512.Transposes [1, 0] S512x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  dot_S131072x512_S512x1024_S131072x1024_1_0_0_1_n_n_wf : DotDims.WF S131072x512 S512x1024 S131072x1024 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf

class Facts : Prop extends Facts₀ where

variable [Facts]
-- ==== Proof.EntryBits.lean ====
/-
  The run of @main up to and around the one pipelined region of `Kernel`, for any float instance `F`.

  @main first builds, on the host, the stacked weight matrix (the four gate matrices joined along their rows), its
  transpose, the transpose's upper and lower halves (the input-to-gate and the hidden-to-gate weights), the stacked bias
  and its copy as a one-row matrix; then it enters the region. None of these six host lines writes an argument array, so
  the region finds every argument as it was launched. This module states what every buffer holds when the region is
  entered (`V`), that @main is those host lines followed by the region (`entry_main`), what block of its array each
  window shows at a grid point (`blockAt`), that an input window's staging buffer holds exactly that block whenever the
  body is called, and how the frame claim follows from the pipeline library's post-condition (`frame_from_post`).
-/
import proofs.«154916_j28913719836975_2_alg».proof.Proof.Gen.Kernel.Launch
import proofs.«154916_j28913719836975_2_alg».proof.Proof.Gen.Kernel.Skeleton
import proofs.«154916_j28913719836975_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold when the region is entered -/

/-- The contents of core `c`'s buffer `b` after the six host lines that precede the region. -/
abbrev V (c : Dev nD) (b : Ref sig .tc) : Buf (Elt F) ((c : Thread nD τ).loc b) :=
  StableHlo.after hostOps0 (fun b => m (c, b)) b

/-- The host lines allocate nothing. -/
theorem host_lines_fresh : (hostOps0 : List (HloOp τ sig (Elt F))).Forall fun op => op.fresh = ∅ := by
  simp only [List.Forall]; repeat' constructor

/-- @main is the six host lines followed by the region, which is entered with the buffers at `V`. -/
theorem entry_main (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_lines_fresh main_chain

/-- A buffer that is none of the six results of the host lines is, at the region's entry, as launched. -/
theorem V_untouched (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_arg0 (c : Dev nD) : V m c main_arg0 = m ((c : Thread nD τ).loc main_arg0) :=
  V_untouched m c main_arg0 (by decide) (by decide) (by decide) (by decide) (by decide) (by decide)
theorem V_arg1 (c : Dev nD) : V m c main_arg1 = m ((c : Thread nD τ).loc main_arg1) :=
  V_untouched m c main_arg1 (by decide) (by decide) (by decide) (by decide) (by decide) (by decide)
theorem V_arg2 (c : Dev nD) : V m c main_arg2 = m ((c : Thread nD τ).loc main_arg2) :=
  V_untouched m c main_arg2 (by decide) (by decide) (by decide) (by decide) (by decide) (by decide)
theorem V_arg3 (c : Dev nD) : V m c main_arg3 = m ((c : Thread nD τ).loc main_arg3) :=
  V_untouched m c main_arg3 (by decide) (by decide) (by decide) (by decide) (by decide) (by decide)
theorem V_arg4 (c : Dev nD) : V m c main_arg4 = m ((c : Thread nD τ).loc main_arg4) :=
  V_untouched m c main_arg4 (by decide) (by decide) (by decide) (by decide) (by decide) (by decide)
theorem V_arg5 (c : Dev nD) : V m c main_arg5 = m ((c : Thread nD τ).loc main_arg5) :=
  V_untouched m c main_arg5 (by decide) (by decide) (by decide) (by decide) (by decide) (by decide)
theorem V_arg6 (c : Dev nD) : V m c main_arg6 = m ((c : Thread nD τ).loc main_arg6) :=
  V_untouched m c main_arg6 (by decide) (by decide) (by decide) (by decide) (by decide) (by decide)
theorem V_arg7 (c : Dev nD) : V m c main_arg7 = m ((c : Thread nD τ).loc main_arg7) :=
  V_untouched m c main_arg7 (by decide) (by decide) (by decide) (by decide) (by decide) (by decide)
theorem V_arg8 (c : Dev nD) : V m c main_arg8 = m ((c : Thread nD τ).loc main_arg8) :=
  V_untouched m c main_arg8 (by decide) (by decide) (by decide) (by decide) (by decide) (by decide)
theorem V_arg9 (c : Dev nD) : V m c main_arg9 = m ((c : Thread nD τ).loc main_arg9) :=
  V_untouched m c main_arg9 (by decide) (by decide) (by decide) (by decide) (by decide) (by decide)
theorem V_arg10 (c : Dev nD) : V m c main_arg10 = m ((c : Thread nD τ).loc main_arg10) :=
  V_untouched m c main_arg10 (by decide) (by decide) (by decide) (by decide) (by decide) (by decide)
theorem V_arg11 (c : Dev nD) : V m c main_arg11 = m ((c : Thread nD τ).loc main_arg11) :=
  V_untouched m c main_arg11 (by decide) (by decide) (by decide) (by decide) (by decide) (by decide)
theorem V_arg12 (c : Dev nD) : V m c main_arg12 = m ((c : Thread nD τ).loc main_arg12) :=
  V_untouched m c main_arg12 (by decide) (by decide) (by decide) (by decide) (by decide) (by decide)

/-! ## The windows' blocks -/

/-- The block of window `w`'s array that the window shows at grid point `t`, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Whenever the body is called, input window 0's staging buffer holds the window's block at that point — whether the
    pipeline fetched it for this point or it is still there from an earlier point with the same block index —, for any
    proof data whose array is the entry contents and whose body leaves the block in place. -/
theorem staged_in0 {c : Dev nD} (dat : Dat τ (Elt F) Unit ℕ (UR sig nD τ) ℕ cfg0 c)
    (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 1's staging buffer holds the window's block at that point — whether the
    pipeline fetched it for this point or it is still there from an earlier point with the same block index —, for any
    proof data whose array is the entry contents and whose body leaves the block in place. -/
theorem staged_in1 {c : Dev nD} (dat : Dat τ (Elt F) Unit ℕ (UR sig nD τ) ℕ cfg0 c)
    (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 2's staging buffer holds the window's block at that point — whether the
    pipeline fetched it for this point or it is still there from an earlier point with the same block index —, for any
    proof data whose array is the entry contents and whose body leaves the block in place. -/
theorem staged_in2 {c : Dev nD} (dat : Dat τ (Elt F) Unit ℕ (UR sig nD τ) ℕ cfg0 c)
    (hA : dat.A 2 = V m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 3's staging buffer holds the window's block at that point — whether the
    pipeline fetched it for this point or it is still there from an earlier point with the same block index —, for any
    proof data whose array is the entry contents and whose body leaves the block in place. -/
theorem staged_in3 {c : Dev nD} (dat : Dat τ (Elt F) Unit ℕ (UR sig nD τ) ℕ cfg0 c)
    (hA : dat.A 3 = V m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 4's staging buffer holds the window's block at that point — whether the
    pipeline fetched it for this point or it is still there from an earlier point with the same block index —, for any
    proof data whose array is the entry contents and whose body leaves the block in place. -/
theorem staged_in4 {c : Dev nD} (dat : Dat τ (Elt F) Unit ℕ (UR sig nD τ) ℕ cfg0 c)
    (hA : dat.A 4 = V m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 5's staging buffer holds the window's block at that point — whether the
    pipeline fetched it for this point or it is still there from an earlier point with the same block index —, for any
    proof data whose array is the entry contents and whose body leaves the block in place. -/
theorem staged_in5 {c : Dev nD} (dat : Dat τ (Elt F) Unit ℕ (UR sig nD τ) ℕ cfg0 c)
    (hA : dat.A 5 = V m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-! ## The frame claim from the pipeline's post-condition -/

/-- In a final state where every window's array holds what the pipeline library computes from the proof data and every
    other unscoped buffer its entry contents, every argument array is as launched: the three staged arguments are input
    windows' arrays, which the library leaves at their entry contents, the ten others bypass the region, and the entry
    contents of an argument are its launch contents (`V_arg…`). -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_arg0 m c))),
   ((h c).1 1).trans (((dats 0 c).arrAt_in 1 rfl _).trans ((hA c 1).trans (V_arg1 m c))),
   ((h c).1 2).trans (((dats 0 c).arrAt_in 2 rfl _).trans ((hA c 2).trans (V_arg2 m c))),
   ((h c).2 main_arg3 (Pipeline.mem_restRefs_of main_arg3 (by decide) (by decide))).trans (V_arg3 m c),
   ((h c).2 main_arg4 (Pipeline.mem_restRefs_of main_arg4 (by decide) (by decide))).trans (V_arg4 m c),
   ((h c).2 main_arg5 (Pipeline.mem_restRefs_of main_arg5 (by decide) (by decide))).trans (V_arg5 m c),
   ((h c).2 main_arg6 (Pipeline.mem_restRefs_of main_arg6 (by decide) (by decide))).trans (V_arg6 m c),
   ((h c).2 main_arg7 (Pipeline.mem_restRefs_of main_arg7 (by decide) (by decide))).trans (V_arg7 m c),
   ((h c).2 main_arg8 (Pipeline.mem_restRefs_of main_arg8 (by decide) (by decide))).trans (V_arg8 m c),
   ((h c).2 main_arg9 (Pipeline.mem_restRefs_of main_arg9 (by decide) (by decide))).trans (V_arg9 m c),
   ((h c).2 main_arg10 (Pipeline.mem_restRefs_of main_arg10 (by decide) (by decide))).trans (V_arg10 m c),
   ((h c).2 main_arg11 (Pipeline.mem_restRefs_of main_arg11 (by decide) (by decide))).trans (V_arg11 m c),
   ((h c).2 main_arg12 (Pipeline.mem_restRefs_of main_arg12 (by decide) (by decide))).trans (V_arg12 m c)⟩

/-- So a run of @main to such a final state is a run after which every argument array is as launched. -/
theorem frame_from_post (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m dats hA r h c) h

end Cert.Kernel.Entry

end
-- ==== Proof.BodyBits.lean ====
/-
  The kernel body of `Kernel` at one grid point, and the run of the whole program, for any float instance `F`.

  At a grid point the body reads six staged blocks — 2048 rows of the input, of the previous hidden state and of the
  previous cell state, the two 256×1024 halves of the transposed stacked weights and the 1×1024 stacked bias — and
  overwrites its two 2048×256 output blocks whole: the new hidden state and the new cell state. (It also reads each output
  block just before overwriting it; what it reads there is never used.) So after the body each output's staging buffer
  holds one store covering the buffer, whose value is a pure function of the six input blocks (the skeleton's payloads
  `k0_pay3` and `k0_pay2`). With that, the pipeline library's frame theorem applies: the program terminates, faults nowhere, leaves
  every input window's array as it found it, and bypasses every other buffer.
-/
import proofs.«154916_j28913719836975_2_alg».proof.Proof.EntryBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes: each is its whole buffer -/

abbrev wholeRows : Rect S2048x256 := Rect.unit (s := S2048x256) ![0, 0] S2048x256.size inb_S2048x256_S2048x256_0_0
abbrev wholeWeights : Rect S256x1024 := Rect.unit (s := S256x1024) ![0, 0] S256x1024.size inb_S256x1024_S256x1024_0_0
abbrev wholeBias : Rect S1x1024 := Rect.unit (s := S1x1024) ![0, 0] S1x1024.size inb_S1x1024_S1x1024_0_0

/-! ## What the body leaves in the two output buffers -/

/-- The new hidden state's block after the body: one store of `tanh(c') · o` over the whole buffer, as a function of the
    input blocks (rows of x, h and c; the two weight halves; the bias row). -/
def hiddenOut (x h cPrev : Vec F S2048x256 .f32) (wx wh : Vec F S256x1024 .f32) (b : Vec F S1x1024 .f32) :
    Vec F S2048x256 .f32 :=
  View.canon [⟨wholeRows, k0_pay3 (View.ld x wholeRows) (View.ld h wholeRows) (View.ld wx wholeWeights)
    (View.ld wh wholeWeights) (View.ld b wholeBias) (View.ld cPrev wholeRows)⟩]

/-- The new cell state's block after the body: one store of `f · c + i · g` over the whole buffer. -/
def cellOut (x h cPrev : Vec F S2048x256 .f32) (wx wh : Vec F S256x1024 .f32) (b : Vec F S1x1024 .f32) :
    Vec F S2048x256 .f32 :=
  View.canon [⟨wholeRows, k0_pay2 (View.ld x wholeRows) (View.ld h wholeRows) (View.ld wx wholeWeights)
    (View.ld wh wholeWeights) (View.ld b wholeBias) (View.ld cPrev wholeRows)⟩]

/-- One store through the whole-buffer rectangle covers the buffer. -/
theorem whole_store_covers (p0 : Vec F S2048x256 .f32) (y : S2048x256.Idx) :
    ∃ pc ∈ ([⟨wholeRows, p0⟩] : List (View.Piece (Elt F) S2048x256 .f32)), y ∈ pc.1.set :=
  View.cover_of_tiled [⟨wholeRows, p0⟩] S2048x256.size (by rfl) y

/-! ## The body's triple -/

set_option maxHeartbeats 1000000 in
/-- The body, on whole staging buffers with the six inputs at known contents and the two outputs at anything, runs to its
    continuation with the inputs as they were and the outputs at `hiddenOut` and `cellOut` of the inputs. -/
theorem body_triple (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1x1024 .f32) (harg6 : arg6.IsWhole)
    (arg7 : Memref sig .tc .vmem S2048x256 .f32) (harg7 : arg7.IsWhole) (arg8 : Memref sig .tc .vmem S2048x256 .f32) (harg8 : arg8.IsWhole)
    (x0 x1 x2 : Vec F S2048x256 .f32) (x3 x4 : Vec F S256x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5)
            ∗ owns (c : Thread nD τ) arg8 fullShare (cellOut x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

/-! ## The pipeline's proof data -/

/-- On core `c`: the arrays as the region finds them; after the body at point `t` each input's buffer still at its
    block and the two outputs' at `hiddenOut` and `cellOut` of the six input blocks; the invariant is the library's plain
    one (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_hidden (c : Dev nD) (t : Fin cfg0.N) : (dats m 0 c).after 6 t
    = hiddenOut (blockAt m c 0 t) (blockAt m c 1 t) (blockAt m c 2 t) (blockAt m c 3 t) (blockAt m c 4 t) (blockAt m c 5 t) := by
  dsimp only [dats]
theorem after_cell (c : Dev nD) (t : Fin cfg0.N) : (dats m 0 c).after 7 t
    = cellOut (blockAt m c 0 t) (blockAt m c 1 t) (blockAt m c 2 t) (blockAt m c 3 t) (blockAt m c 4 t) (blockAt m c 5 t) := by
  dsimp only [dats]

theorem before_in0 (c : Dev nD) (t : Fin cfg0.N) (d) : (dats m 0 c).before 0 t d = blockAt m c 0 t :=
  staged_in0 m (dats m 0 c) (arrays_eq m c 0) (after_in0 m c) t d
theorem before_in1 (c : Dev nD) (t : Fin cfg0.N) (d) : (dats m 0 c).before 1 t d = blockAt m c 1 t :=
  staged_in1 m (dats m 0 c) (arrays_eq m c 1) (after_in1 m c) t d
theorem before_in2 (c : Dev nD) (t : Fin cfg0.N) (d) : (dats m 0 c).before 2 t d = blockAt m c 2 t :=
  staged_in2 m (dats m 0 c) (arrays_eq m c 2) (after_in2 m c) t d
theorem before_in3 (c : Dev nD) (t : Fin cfg0.N) (d) : (dats m 0 c).before 3 t d = blockAt m c 3 t :=
  staged_in3 m (dats m 0 c) (arrays_eq m c 3) (after_in3 m c) t d
theorem before_in4 (c : Dev nD) (t : Fin cfg0.N) (d) : (dats m 0 c).before 4 t d = blockAt m c 4 t :=
  staged_in4 m (dats m 0 c) (arrays_eq m c 4) (after_in4 m c) t d
theorem before_in5 (c : Dev nD) (t : Fin cfg0.N) (d) : (dats m 0 c).before 5 t d = blockAt m c 5 t :=
  staged_in5 m (dats m 0 c) (arrays_eq m c 5) (after_in5 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `body_triple` applies; the invariant and what the core
    owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and in every final state each window's
    array holds what the library computes from the proof data and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry_main m Variants.none) (hA := arrays_eq m) (hΦ := fun _ _ => rfl)

/-- The program terminates, faults nowhere and leaves its thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_from_post m ρ (dats m) (arrays_eq m) (run_main m ρ)

end Cert.Kernel.Body

end
-- ==== Proof.EntryIdeal.lean ====
/-
  The run of @main up to and around the one pipelined region of `KernelIdeal`, for any float instance `F`.

  @main first builds, on the host, the stacked weight matrix (the four gate matrices joined along their rows), its
  transpose, the transpose's upper and lower halves (the input-to-gate and the hidden-to-gate weights), the stacked bias
  and its copy as a one-row matrix; then it enters the region. None of these six host lines writes an argument array, so
  the region finds every argument as it was launched. This module states what every buffer holds when the region is
  entered (`V`), that @main is those host lines followed by the region (`entry_main`), what block of its array each
  window shows at a grid point (`blockAt`), that an input window's staging buffer holds exactly that block whenever the
  body is called, and how the frame claim follows from the pipeline library's post-condition (`frame_from_post`).
-/
import proofs.«154916_j28913719836975_2_alg».proof.Proof.Gen.KernelIdeal.Launch
import proofs.«154916_j28913719836975_2_alg».proof.Proof.Gen.KernelIdeal.Skeleton
import proofs.«154916_j28913719836975_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold when the region is entered -/

/-- The contents of core `c`'s buffer `b` after the six host lines that precede the region. -/
abbrev V (c : Dev nD) (b : Ref sig .tc) : Buf (Elt F) ((c : Thread nD τ).loc b) :=
  StableHlo.after hostOps0 (fun b => m (c, b)) b

/-- The host lines allocate nothing. -/
theorem host_lines_fresh : (hostOps0 : List (HloOp τ sig (Elt F))).Forall fun op => op.fresh = ∅ := by
  simp only [List.Forall]; repeat' constructor

/-- @main is the six host lines followed by the region, which is entered with the buffers at `V`. -/
theorem entry_main (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_lines_fresh main_chain

/-- A buffer that is none of the six results of the host lines is, at the region's entry, as launched. -/
theorem V_untouched (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_arg0 (c : Dev nD) : V m c main_arg0 = m ((c : Thread nD τ).loc main_arg0) :=
  V_untouched m c main_arg0 (by decide) (by decide) (by decide) (by decide) (by decide) (by decide)
theorem V_arg1 (c : Dev nD) : V m c main_arg1 = m ((c : Thread nD τ).loc main_arg1) :=
  V_untouched m c main_arg1 (by decide) (by decide) (by decide) (by decide) (by decide) (by decide)
theorem V_arg2 (c : Dev nD) : V m c main_arg2 = m ((c : Thread nD τ).loc main_arg2) :=
  V_untouched m c main_arg2 (by decide) (by decide) (by decide) (by decide) (by decide) (by decide)
theorem V_arg3 (c : Dev nD) : V m c main_arg3 = m ((c : Thread nD τ).loc main_arg3) :=
  V_untouched m c main_arg3 (by decide) (by decide) (by decide) (by decide) (by decide) (by decide)
theorem V_arg4 (c : Dev nD) : V m c main_arg4 = m ((c : Thread nD τ).loc main_arg4) :=
  V_untouched m c main_arg4 (by decide) (by decide) (by decide) (by decide) (by decide) (by decide)
theorem V_arg5 (c : Dev nD) : V m c main_arg5 = m ((c : Thread nD τ).loc main_arg5) :=
  V_untouched m c main_arg5 (by decide) (by decide) (by decide) (by decide) (by decide) (by decide)
theorem V_arg6 (c : Dev nD) : V m c main_arg6 = m ((c : Thread nD τ).loc main_arg6) :=
  V_untouched m c main_arg6 (by decide) (by decide) (by decide) (by decide) (by decide) (by decide)
theorem V_arg7 (c : Dev nD) : V m c main_arg7 = m ((c : Thread nD τ).loc main_arg7) :=
  V_untouched m c main_arg7 (by decide) (by decide) (by decide) (by decide) (by decide) (by decide)
theorem V_arg8 (c : Dev nD) : V m c main_arg8 = m ((c : Thread nD τ).loc main_arg8) :=
  V_untouched m c main_arg8 (by decide) (by decide) (by decide) (by decide) (by decide) (by decide)
theorem V_arg9 (c : Dev nD) : V m c main_arg9 = m ((c : Thread nD τ).loc main_arg9) :=
  V_untouched m c main_arg9 (by decide) (by decide) (by decide) (by decide) (by decide) (by decide)
theorem V_arg10 (c : Dev nD) : V m c main_arg10 = m ((c : Thread nD τ).loc main_arg10) :=
  V_untouched m c main_arg10 (by decide) (by decide) (by decide) (by decide) (by decide) (by decide)
theorem V_arg11 (c : Dev nD) : V m c main_arg11 = m ((c : Thread nD τ).loc main_arg11) :=
  V_untouched m c main_arg11 (by decide) (by decide) (by decide) (by decide) (by decide) (by decide)
theorem V_arg12 (c : Dev nD) : V m c main_arg12 = m ((c : Thread nD τ).loc main_arg12) :=
  V_untouched m c main_arg12 (by decide) (by decide) (by decide) (by decide) (by decide) (by decide)

/-! ## The windows' blocks -/

/-- The block of window `w`'s array that the window shows at grid point `t`, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Whenever the body is called, input window 0's staging buffer holds the window's block at that point — whether the
    pipeline fetched it for this point or it is still there from an earlier point with the same block index —, for any
    proof data whose array is the entry contents and whose body leaves the block in place. -/
theorem staged_in0 {c : Dev nD} (dat : Dat τ (Elt F) Unit ℕ (UR sig nD τ) ℕ cfg0 c)
    (hA : dat.A 0 = V m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 1's staging buffer holds the window's block at that point — whether the
    pipeline fetched it for this point or it is still there from an earlier point with the same block index —, for any
    proof data whose array is the entry contents and whose body leaves the block in place. -/
theorem staged_in1 {c : Dev nD} (dat : Dat τ (Elt F) Unit ℕ (UR sig nD τ) ℕ cfg0 c)
    (hA : dat.A 1 = V m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 2's staging buffer holds the window's block at that point — whether the
    pipeline fetched it for this point or it is still there from an earlier point with the same block index —, for any
    proof data whose array is the entry contents and whose body leaves the block in place. -/
theorem staged_in2 {c : Dev nD} (dat : Dat τ (Elt F) Unit ℕ (UR sig nD τ) ℕ cfg0 c)
    (hA : dat.A 2 = V m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 3's staging buffer holds the window's block at that point — whether the
    pipeline fetched it for this point or it is still there from an earlier point with the same block index —, for any
    proof data whose array is the entry contents and whose body leaves the block in place. -/
theorem staged_in3 {c : Dev nD} (dat : Dat τ (Elt F) Unit ℕ (UR sig nD τ) ℕ cfg0 c)
    (hA : dat.A 3 = V m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 4's staging buffer holds the window's block at that point — whether the
    pipeline fetched it for this point or it is still there from an earlier point with the same block index —, for any
    proof data whose array is the entry contents and whose body leaves the block in place. -/
theorem staged_in4 {c : Dev nD} (dat : Dat τ (Elt F) Unit ℕ (UR sig nD τ) ℕ cfg0 c)
    (hA : dat.A 4 = V m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
/-- Whenever the body is called, input window 5's staging buffer holds the window's block at that point — whether the
    pipeline fetched it for this point or it is still there from an earlier point with the same block index —, for any
    proof data whose array is the entry contents and whose body leaves the block in place. -/
theorem staged_in5 {c : Dev nD} (dat : Dat τ (Elt F) Unit ℕ (UR sig nD τ) ℕ cfg0 c)
    (hA : dat.A 5 = V m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-! ## The frame claim from the pipeline's post-condition -/

/-- In a final state where every window's array holds what the pipeline library computes from the proof data and every
    other unscoped buffer its entry contents, every argument array is as launched: the three staged arguments are input
    windows' arrays, which the library leaves at their entry contents, the ten others bypass the region, and the entry
    contents of an argument are its launch contents (`V_arg…`). -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_arg0 m c))),
   ((h c).1 1).trans (((dats 0 c).arrAt_in 1 rfl _).trans ((hA c 1).trans (V_arg1 m c))),
   ((h c).1 2).trans (((dats 0 c).arrAt_in 2 rfl _).trans ((hA c 2).trans (V_arg2 m c))),
   ((h c).2 main_arg3 (Pipeline.mem_restRefs_of main_arg3 (by decide) (by decide))).trans (V_arg3 m c),
   ((h c).2 main_arg4 (Pipeline.mem_restRefs_of main_arg4 (by decide) (by decide))).trans (V_arg4 m c),
   ((h c).2 main_arg5 (Pipeline.mem_restRefs_of main_arg5 (by decide) (by decide))).trans (V_arg5 m c),
   ((h c).2 main_arg6 (Pipeline.mem_restRefs_of main_arg6 (by decide) (by decide))).trans (V_arg6 m c),
   ((h c).2 main_arg7 (Pipeline.mem_restRefs_of main_arg7 (by decide) (by decide))).trans (V_arg7 m c),
   ((h c).2 main_arg8 (Pipeline.mem_restRefs_of main_arg8 (by decide) (by decide))).trans (V_arg8 m c),
   ((h c).2 main_arg9 (Pipeline.mem_restRefs_of main_arg9 (by decide) (by decide))).trans (V_arg9 m c),
   ((h c).2 main_arg10 (Pipeline.mem_restRefs_of main_arg10 (by decide) (by decide))).trans (V_arg10 m c),
   ((h c).2 main_arg11 (Pipeline.mem_restRefs_of main_arg11 (by decide) (by decide))).trans (V_arg11 m c),
   ((h c).2 main_arg12 (Pipeline.mem_restRefs_of main_arg12 (by decide) (by decide))).trans (V_arg12 m c)⟩

/-- So a run of @main to such a final state is a run after which every argument array is as launched. -/
theorem frame_from_post (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m dats hA r h c) h

end Cert.KernelIdeal.Entry

end
-- ==== Proof.BodyIdeal.lean ====
/-
  The kernel body of `KernelIdeal` at one grid point, and the run of the whole program, for any float instance `F`.

  At a grid point the body reads six staged blocks — 2048 rows of the input, of the previous hidden state and of the
  previous cell state, the two 256×1024 halves of the transposed stacked weights and the 1×1024 stacked bias — and
  overwrites its two 2048×256 output blocks whole: the new hidden state and the new cell state. (It also reads each output
  block just before overwriting it; what it reads there is never used.) So after the body each output's staging buffer
  holds one store covering the buffer, whose value is a pure function of the six input blocks (the skeleton's payloads
  `k0_pay3` and `k0_pay2`). With that, the pipeline library's frame theorem applies: the program terminates, faults nowhere, leaves
  every input window's array as it found it, and bypasses every other buffer.
-/
import proofs.«154916_j28913719836975_2_alg».proof.Proof.EntryIdeal

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes: each is its whole buffer -/

abbrev wholeRows : Rect S2048x256 := Rect.unit (s := S2048x256) ![0, 0] S2048x256.size inb_S2048x256_S2048x256_0_0
abbrev wholeWeights : Rect S256x1024 := Rect.unit (s := S256x1024) ![0, 0] S256x1024.size inb_S256x1024_S256x1024_0_0
abbrev wholeBias : Rect S1x1024 := Rect.unit (s := S1x1024) ![0, 0] S1x1024.size inb_S1x1024_S1x1024_0_0

/-! ## What the body leaves in the two output buffers -/

/-- The new hidden state's block after the body: one store of `tanh(c') · o` over the whole buffer, as a function of the
    input blocks (rows of x, h and c; the two weight halves; the bias row). -/
def hiddenOut (x h cPrev : Vec F S2048x256 .f32) (wx wh : Vec F S256x1024 .f32) (b : Vec F S1x1024 .f32) :
    Vec F S2048x256 .f32 :=
  View.canon [⟨wholeRows, k0_pay3 (View.ld x wholeRows) (View.ld h wholeRows) (View.ld wx wholeWeights)
    (View.ld wh wholeWeights) (View.ld b wholeBias) (View.ld cPrev wholeRows)⟩]

/-- The new cell state's block after the body: one store of `f · c + i · g` over the whole buffer. -/
def cellOut (x h cPrev : Vec F S2048x256 .f32) (wx wh : Vec F S256x1024 .f32) (b : Vec F S1x1024 .f32) :
    Vec F S2048x256 .f32 :=
  View.canon [⟨wholeRows, k0_pay2 (View.ld x wholeRows) (View.ld h wholeRows) (View.ld wx wholeWeights)
    (View.ld wh wholeWeights) (View.ld b wholeBias) (View.ld cPrev wholeRows)⟩]

/-- One store through the whole-buffer rectangle covers the buffer. -/
theorem whole_store_covers (p0 : Vec F S2048x256 .f32) (y : S2048x256.Idx) :
    ∃ pc ∈ ([⟨wholeRows, p0⟩] : List (View.Piece (Elt F) S2048x256 .f32)), y ∈ pc.1.set :=
  View.cover_of_tiled [⟨wholeRows, p0⟩] S2048x256.size (by rfl) y

/-! ## The body's triple -/

set_option maxHeartbeats 1000000 in
/-- The body, on whole staging buffers with the six inputs at known contents and the two outputs at anything, runs to its
    continuation with the inputs as they were and the outputs at `hiddenOut` and `cellOut` of the inputs. -/
theorem body_triple (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .f32) (harg4 : arg4.IsWhole)
    (arg5 : Memref sig .tc .vmem S256x1024 .f32) (harg5 : arg5.IsWhole) (arg6 : Memref sig .tc .vmem S1x1024 .f32) (harg6 : arg6.IsWhole)
    (arg7 : Memref sig .tc .vmem S2048x256 .f32) (harg7 : arg7.IsWhole) (arg8 : Memref sig .tc .vmem S2048x256 .f32) (harg8 : arg8.IsWhole)
    (x0 x1 x2 : Vec F S2048x256 .f32) (x3 x4 : Vec F S256x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5)
            ∗ owns (c : Thread nD τ) arg8 fullShare (cellOut x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

/-! ## The pipeline's proof data -/

/-- On core `c`: the arrays as the region finds them; after the body at point `t` each input's buffer still at its
    block and the two outputs' at `hiddenOut` and `cellOut` of the six input blocks; the invariant is the library's plain
    one (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_hidden (c : Dev nD) (t : Fin cfg0.N) : (dats m 0 c).after 6 t
    = hiddenOut (blockAt m c 0 t) (blockAt m c 1 t) (blockAt m c 2 t) (blockAt m c 3 t) (blockAt m c 4 t) (blockAt m c 5 t) := by
  dsimp only [dats]
theorem after_cell (c : Dev nD) (t : Fin cfg0.N) : (dats m 0 c).after 7 t
    = cellOut (blockAt m c 0 t) (blockAt m c 1 t) (blockAt m c 2 t) (blockAt m c 3 t) (blockAt m c 4 t) (blockAt m c 5 t) := by
  dsimp only [dats]

theorem before_in0 (c : Dev nD) (t : Fin cfg0.N) (d) : (dats m 0 c).before 0 t d = blockAt m c 0 t :=
  staged_in0 m (dats m 0 c) (arrays_eq m c 0) (after_in0 m c) t d
theorem before_in1 (c : Dev nD) (t : Fin cfg0.N) (d) : (dats m 0 c).before 1 t d = blockAt m c 1 t :=
  staged_in1 m (dats m 0 c) (arrays_eq m c 1) (after_in1 m c) t d
theorem before_in2 (c : Dev nD) (t : Fin cfg0.N) (d) : (dats m 0 c).before 2 t d = blockAt m c 2 t :=
  staged_in2 m (dats m 0 c) (arrays_eq m c 2) (after_in2 m c) t d
theorem before_in3 (c : Dev nD) (t : Fin cfg0.N) (d) : (dats m 0 c).before 3 t d = blockAt m c 3 t :=
  staged_in3 m (dats m 0 c) (arrays_eq m c 3) (after_in3 m c) t d
theorem before_in4 (c : Dev nD) (t : Fin cfg0.N) (d) : (dats m 0 c).before 4 t d = blockAt m c 4 t :=
  staged_in4 m (dats m 0 c) (arrays_eq m c 4) (after_in4 m c) t d
theorem before_in5 (c : Dev nD) (t : Fin cfg0.N) (d) : (dats m 0 c).before 5 t d = blockAt m c 5 t :=
  staged_in5 m (dats m 0 c) (arrays_eq m c 5) (after_in5 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `body_triple` applies; the invariant and what the core
    owes pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and in every final state each window's
    array holds what the library computes from the proof data and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry_main m Variants.none) (hA := arrays_eq m) (hΦ := fun _ _ => rfl)

/-- The program terminates, faults nowhere and leaves its thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_from_post m ρ (dats m) (arrays_eq m) (run_main m ρ)

end Cert.KernelIdeal.Body

end
-- ==== Proof.Spec.lean ====
/-
  What one step of the LSTM cell computes, as two functions of the argument arrays, entry by entry, on the extended reals.

  Stack the four gate matrices (input, forget, output, candidate — each 256×512) by rows into `W` (1024×512) and the four gate
  biases into `b` (1024). For batch row `r` and gate column `j` the pre-activation is
      z(r, j) = Σ_{k<256} x(r,k)·W(j,k) + Σ_{k<256} h(r,k)·W(j,256+k) + b(j),
  the input's 256 features against the first 256 columns of row `j` of `W`, the hidden state's against the last 256. With
  σ the logistic function, for q < 256:
      c'(r,q) = σ(z(r,256+q))·c(r,q) + σ(z(r,q))·tanh(z(r,768+q)),       h'(r,q) = tanh(c'(r,q))·σ(z(r,512+q)).
  The one algebraic fact used to meet a program that contracts all 512 positions in one sum is that a sum over 512 positions
  is the sum over the first 256 plus the sum over the last 256; it holds in any commutative monoid, so no finiteness of the
  entries is needed.
-/
import Idealize.ShloMosaic.PureOps.Ideal
import Idealize.ShloMosaic.Lib.ValueIdx

noncomputable section

namespace Cert.LstmStep

open Idealize.ShloMosaic Idealize.ShloMosaic.ValueIdx

/-- A batch of rows of 256 features. -/
abbrev Rows : Shape := ⟨2, ![131072, 256]⟩
/-- The four gate matrices stacked by rows. -/
abbrev Stack : Shape := ⟨2, ![1024, 512]⟩
/-- The four gate biases stacked. -/
abbrev BiasStack : Shape := ⟨1, ![1024]⟩

/-- Contraction position `k` of the input part: column `k` of a row of the stacked weights. -/
def inPart (k : Fin 256) : Fin 512 := ⟨k.val, by omega⟩
/-- Contraction position `k` of the hidden part: column `256 + k`. -/
def hidPart (k : Fin 256) : Fin 512 := ⟨256 + k.val, by omega⟩

/-- Column `q` of the input gate, of the forget gate, of the output gate and of the candidate, among the 1024 stacked. -/
def colI (q : Fin 256) : Fin 1024 := ⟨q.val, by omega⟩
def colF (q : Fin 256) : Fin 1024 := ⟨256 + q.val, by omega⟩
def colO (q : Fin 256) : Fin 1024 := ⟨512 + q.val, by omega⟩
def colG (q : Fin 256) : Fin 1024 := ⟨768 + q.val, by omega⟩

/-- A sum over the 512 contraction positions is the sum over the input part plus the sum over the hidden part. -/
theorem sum_in_hid {M : Type*} [AddCommMonoid M] (f : Fin 512 → M) :
    ∑ k : Fin 512, f k = ∑ k : Fin 256, f (inPart k) + ∑ k : Fin 256, f (hidPart k) :=
  Fin.sum_univ_add (a := 256) (b := 256) f

section
variable (x h cPrev : FVec Ideal Rows .f32) (W : FVec Ideal Stack .f32) (b : FVec Ideal BiasStack .f32)

/-- The pre-activation of gate column `j` on batch row `r`. -/
def preact (r : Fin 131072) (j : Fin 1024) : EReal :=
  (∑ k : Fin 256, x (ix2 r k) * W (ix2 j (inPart k)) + ∑ k : Fin 256, h (ix2 r k) * W (ix2 j (hidPart k))) + b (ix1 j)

/-- The new cell state: forget gate times the old cell state plus input gate times candidate. -/
def cellNext (r : Fin 131072) (q : Fin 256) : EReal :=
  Ideal.logistic (preact x h W b r (colF q)) * cPrev (ix2 r q)
    + Ideal.logistic (preact x h W b r (colI q)) * Ideal.tanh (preact x h W b r (colG q))

/-- The new hidden state: tanh of the new cell state times the output gate. -/
def hiddenNext (r : Fin 131072) (q : Fin 256) : EReal :=
  Ideal.tanh (cellNext x h cPrev W b r q) * Ideal.logistic (preact x h W b r (colO q))

/-- The new cell state as a whole array. -/
def cellArray : FVec Ideal Rows .f32 := fun i => cellNext x h cPrev W b (i 0) (i 1)
/-- The new hidden state as a whole array. -/
def hiddenArray : FVec Ideal Rows .f32 := fun i => hiddenNext x h cPrev W b (i 0) (i 1)

end

end Cert.LstmStep

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.BlockStep.lean ====
/-
  The kernel body's two stored values at an entry of the block, on the extended reals.

  At a grid point the body holds 2048 rows of x, h and c, the two 256×1024 weight matrices (the rows of the transposed
  stack that meet x, and those that meet h) and the 1×1024 bias row. Its pre-activation at row `p`, gate column `j` is
      x(p,·)·wx(·,j) + h(p,·)·wh(·,j) + b(0,j),
  two 256-term products into zero accumulators, added, plus the bias row broadcast down the 2048 rows. The four gates are
  the column ranges [0,256), [256,512), [512,768), [768,1024) of that 2048×1024 matrix; the stored cell state is
  σ(forget)·c + σ(input)·tanh(candidate) and the stored hidden state tanh(cell)·σ(output).
-/
import proofs.«154916_j28913719836975_2_alg».proof.Proof.Gen.KernelIdeal.Skeleton
import proofs.«154916_j28913719836975_2_alg».proof.Proof.Spec
import proofs.«154916_j28913719836975_2_alg».proof.Proof.LibPlainMatmul
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.BlockStep

open Cert.KernelIdeal Cert.KernelIdeal.Gen Cert.LstmStep
open Idealize.ShloMosaic Idealize.ShloMosaic.ValueIdx

variable (x h cPrev : FVec Ideal S2048x256 .f32) (wx wh : FVec Ideal S256x1024 .f32) (b : FVec Ideal S1x1024 .f32)

/-- The block's pre-activation at row `p`, gate column `j`. -/
def blockPreact (p : Fin 2048) (j : Fin 1024) : EReal :=
  (∑ k : Fin 256, x (ix2 p k) * wx (ix2 k j) + ∑ k : Fin 256, h (ix2 p k) * wh (ix2 k j)) + b (ix2 (0 : Fin 1) j)

/-- The block's new cell state at (p, q). -/
def blockCell (p : Fin 2048) (q : Fin 256) : EReal :=
  Ideal.logistic (blockPreact x h wx wh b p (colF q)) * cPrev (ix2 p q)
    + Ideal.logistic (blockPreact x h wx wh b p (colI q)) * Ideal.tanh (blockPreact x h wx wh b p (colG q))

/-- The block's new hidden state at (p, q). -/
def blockHidden (p : Fin 2048) (q : Fin 256) : EReal :=
  Ideal.tanh (blockCell x h cPrev wx wh b p q) * Ideal.logistic (blockPreact x h wx wh b p (colO q))

/-- The body's 2048×1024 matrix of pre-activations, at an entry. -/
theorem preact_at (p : Fin 2048) (j : Fin 1024) :
    k0_pay1 (F := Ideal) x h wx wh b (ix2 p j) = blockPreact x h wx wh b p j := by
  have e : k0_pay1 (F := Ideal) x h wx wh b (ix2 p j)
      = (FloatOps.matmul dot_S2048x256_S256x1024_S2048x1024_1_0_0_1_n_n (some .fp32) x (shapeCast S256x1024 wx shapeCasts_S256x1024_S256x1024)
            (constant S2048x1024 .f32 0x00000000#32) (ix2 p j)
          + FloatOps.matmul dot_S2048x256_S256x1024_S2048x1024_1_0_0_1_n_n (some .fp32) h (shapeCast S256x1024 wh shapeCasts_S256x1024_S256x1024)
            (constant S2048x1024 .f32 0x00000000#32) (ix2 p j))
        + broadcastTo S2048x1024 (shapeCast S1x1024 b shapeCasts_S1x1024_S1x1024) broadcasts_S1x1024_S2048x1024 (ix2 p j) := rfl
  rw [e, shapeCast_self, shapeCast_self, shapeCast_self,
    Cert.LibPlainMatmul.matmul_plain_zero_apply dot_S2048x256_S256x1024_S2048x1024_1_0_0_1_n_n rfl (some .fp32) x wx p j,
    Cert.LibPlainMatmul.matmul_plain_zero_apply dot_S2048x256_S256x1024_S2048x1024_1_0_0_1_n_n rfl (some .fp32) h wh p j,
    broadcastTo_1b_ab_apply b broadcasts_S1x1024_S2048x1024 p j]
  rfl

/-- The four gates' columns of the pre-activations. -/
theorem gateI_at (p : Fin 2048) (q : Fin 256) :
    extractStridedSlice S2048x256 ![0, 0] (k0_pay1 (F := Ideal) x h wx wh b) slices_S2048x1024_o0_0_S2048x256 (ix2 p q)
      = blockPreact x h wx wh b p (colI q) :=
  (slice2_axis1_apply 0 (k0_pay1 (F := Ideal) x h wx wh b) slices_S2048x1024_o0_0_S2048x256 p q (colI q)
    (Nat.zero_add _).symm).trans (preact_at x h wx wh b p (colI q))
theorem gateF_at (p : Fin 2048) (q : Fin 256) :
    extractStridedSlice S2048x256 ![0, 256] (k0_pay1 (F := Ideal) x h wx wh b) slices_S2048x1024_o0_256_S2048x256 (ix2 p q)
      = blockPreact x h wx wh b p (colF q) :=
  (slice2_axis1_apply 256 (k0_pay1 (F := Ideal) x h wx wh b) slices_S2048x1024_o0_256_S2048x256 p q (colF q) rfl).trans
    (preact_at x h wx wh b p (colF q))
theorem gateO_at (p : Fin 2048) (q : Fin 256) :
    extractStridedSlice S2048x256 ![0, 512] (k0_pay1 (F := Ideal) x h wx wh b) slices_S2048x1024_o0_512_S2048x256 (ix2 p q)
      = blockPreact x h wx wh b p (colO q) :=
  (slice2_axis1_apply 512 (k0_pay1 (F := Ideal) x h wx wh b) slices_S2048x1024_o0_512_S2048x256 p q (colO q) rfl).trans
    (preact_at x h wx wh b p (colO q))
theorem gateG_at (p : Fin 2048) (q : Fin 256) :
    extractStridedSlice S2048x256 ![0, 768] (k0_pay1 (F := Ideal) x h wx wh b) slices_S2048x1024_o0_768_S2048x256 (ix2 p q)
      = blockPreact x h wx wh b p (colG q) :=
  (slice2_axis1_apply 768 (k0_pay1 (F := Ideal) x h wx wh b) slices_S2048x1024_o0_768_S2048x256 p q (colG q) rfl).trans
    (preact_at x h wx wh b p (colG q))

/-- The stored cell state at an entry. -/
theorem cell_at (p : Fin 2048) (q : Fin 256) :
    k0_pay2 (F := Ideal) x h wx wh b cPrev (ix2 p q) = blockCell x h cPrev wx wh b p q := by
  have e : k0_pay2 (F := Ideal) x h wx wh b cPrev (ix2 p q)
      = Ideal.logistic (extractStridedSlice S2048x256 ![0, 256] (k0_pay1 (F := Ideal) x h wx wh b) slices_S2048x1024_o0_256_S2048x256 (ix2 p q))
          * cPrev (ix2 p q)
        + Ideal.logistic (extractStridedSlice S2048x256 ![0, 0] (k0_pay1 (F := Ideal) x h wx wh b) slices_S2048x1024_o0_0_S2048x256 (ix2 p q))
          * Ideal.tanh (extractStridedSlice S2048x256 ![0, 768] (k0_pay1 (F := Ideal) x h wx wh b) slices_S2048x1024_o0_768_S2048x256 (ix2 p q)) := rfl
  rw [e, gateF_at, gateI_at, gateG_at]
  rfl

/-- The stored hidden state at an entry. -/
theorem hidden_at (p : Fin 2048) (q : Fin 256) :
    k0_pay3 (F := Ideal) x h wx wh b cPrev (ix2 p q) = blockHidden x h cPrev wx wh b p q := by
  have e : k0_pay3 (F := Ideal) x h wx wh b cPrev (ix2 p q)
      = Ideal.tanh (k0_pay2 (F := Ideal) x h wx wh b cPrev (ix2 p q))
          * Ideal.logistic (extractStridedSlice S2048x256 ![0, 512] (k0_pay1 (F := Ideal) x h wx wh b) slices_S2048x1024_o0_512_S2048x256 (ix2 p q)) := rfl
  rw [e, cell_at, gateO_at]
  rfl

/-! ## A block's step is the whole arrays' step at the block's rows -/

section Transfer
variable (X H C : FVec Ideal Rows .f32) (W : FVec Ideal Stack .f32) (B : FVec Ideal BiasStack .f32)
variable (r : Fin 131072) (p : Fin 2048)

/-- If row `p` of the x- and h-blocks is row `r` of the arrays, the block's weight matrices are the two halves of the
    transposed stack and its bias row is the stacked bias, then the block's pre-activation at row `p` is the
    specification's at row `r`. -/
theorem blockPreact_of (hx : ∀ k, x (ix2 p k) = X (ix2 r k)) (hh : ∀ k, h (ix2 p k) = H (ix2 r k))
    (hwx : ∀ k j, wx (ix2 k j) = W (ix2 j (inPart k))) (hwh : ∀ k j, wh (ix2 k j) = W (ix2 j (hidPart k)))
    (hb : ∀ j, b (ix2 (0 : Fin 1) j) = B (ix1 j)) (j : Fin 1024) :
    blockPreact x h wx wh b p j = preact X H W B r j := by
  unfold blockPreact preact
  simp only [hx, hh, hwx, hwh, hb]

theorem blockCell_of (hx : ∀ k, x (ix2 p k) = X (ix2 r k)) (hh : ∀ k, h (ix2 p k) = H (ix2 r k))
    (hc : ∀ q, cPrev (ix2 p q) = C (ix2 r q))
    (hwx : ∀ k j, wx (ix2 k j) = W (ix2 j (inPart k))) (hwh : ∀ k j, wh (ix2 k j) = W (ix2 j (hidPart k)))
    (hb : ∀ j, b (ix2 (0 : Fin 1) j) = B (ix1 j)) (q : Fin 256) :
    blockCell x h cPrev wx wh b p q = cellNext X H C W B r q := by
  unfold blockCell cellNext
  simp only [blockPreact_of x h wx wh b X H W B r p hx hh hwx hwh hb, hc]

theorem blockHidden_of (hx : ∀ k, x (ix2 p k) = X (ix2 r k)) (hh : ∀ k, h (ix2 p k) = H (ix2 r k))
    (hc : ∀ q, cPrev (ix2 p q) = C (ix2 r q))
    (hwx : ∀ k j, wx (ix2 k j) = W (ix2 j (inPart k))) (hwh : ∀ k j, wh (ix2 k j) = W (ix2 j (hidPart k)))
    (hb : ∀ j, b (ix2 (0 : Fin 1) j) = B (ix1 j)) (q : Fin 256) :
    blockHidden x h cPrev wx wh b p q = hiddenNext X H C W B r q := by
  unfold blockHidden hiddenNext
  simp only [blockPreact_of x h wx wh b X H W B r p hx hh hwx hwh hb,
    blockCell_of x h cPrev wx wh b X H C W B r p hx hh hc hwx hwh hb]

end Transfer

end Cert.KernelIdeal.BlockStep

end
-- ==== Proof.ArrayStep.lean ====
/-
  From what each grid point writes back to the two whole result arrays of the idealized kernel.

  The 131072 rows are cut into 64 blocks of 2048; grid point `t` reads rows 2048·t … 2048·t + 2047 of x, h and c, reads the
  same two weight matrices and bias row at every point, and writes rows 2048·t … of the two results. The weight matrices
  the region finds are the upper and lower 256 rows of the transposed stack of the four gate matrices, so their (k, j)
  entries are the stack's (j, k) and (j, 256 + k); the bias row it finds is the stacked bias. Hence what point `t` writes
  back is block `t` of the LSTM step's arrays (`Cert.LstmStep`), the 64 blocks cover every row, and the two result arrays
  end holding exactly those arrays.
-/
import proofs.«154916_j28913719836975_2_alg».proof.Proof.BodyIdeal
import proofs.«154916_j28913719836975_2_alg».proof.Proof.BlockStep
import Idealize.ShloMosaic.Lib.Pipeline.Value
import Idealize.ShloMosaic.Lib.StableHlo.Run
import Idealize.ShloMosaic.Lib.ValueLayout

set_option maxRecDepth 16384

noncomputable section

namespace Cert.KernelIdeal.ArrayStep

open Cert.KernelIdeal Cert.KernelIdeal.Gen Cert.KernelIdeal.Entry Cert.KernelIdeal.Body Cert.KernelIdeal.BlockStep Cert.LstmStep
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The stacked weights and bias, and what the host lines leave for the region -/

/-- The four gate matrices joined by rows. -/
def stackW (c : Dev nD) : FVec Ideal S1024x512 .f32 :=
  concatenate S1024x512 0 [⟨S256x512, m ((c.tc : Thread nD τ).loc main_arg5)⟩, ⟨S256x512, m ((c.tc : Thread nD τ).loc main_arg7)⟩,
    ⟨S256x512, m ((c.tc : Thread nD τ).loc main_arg9)⟩, ⟨S256x512, m ((c.tc : Thread nD τ).loc main_arg11)⟩]
    concatenates_S256x512_S256x512_S256x512_S256x512_S1024x512_d0
/-- The four gate biases joined. -/
def stackB (c : Dev nD) : FVec Ideal S1024 .f32 :=
  concatenate S1024 0 [⟨S256, m ((c.tc : Thread nD τ).loc main_arg6)⟩, ⟨S256, m ((c.tc : Thread nD τ).loc main_arg8)⟩,
    ⟨S256, m ((c.tc : Thread nD τ).loc main_arg10)⟩, ⟨S256, m ((c.tc : Thread nD τ).loc main_arg12)⟩]
    concatenates_S256_S256_S256_S256_S1024_d0

/-- The input-to-gate weights the region finds: rows 0 … 255 of the transposed stack. -/
theorem entry_wx (c : Dev nD) : (V m c main_v2 : S256x1024.Idx → EReal)
    = extractStridedSlice S256x1024 ![0, 0] (transpose S512x1024 [1, 0] (stackW m c) transposes_S1024x512_S512x1024_1_0) slices_S512x1024_S256x1024_0_0 := by
  dsimp only [V, hostOps0]
  after_results
  rfl
/-- The hidden-to-gate weights the region finds: rows 256 … 511 of the transposed stack. -/
theorem entry_wh (c : Dev nD) : (V m c main_v3 : S256x1024.Idx → EReal)
    = extractStridedSlice S256x1024 ![256, 0] (transpose S512x1024 [1, 0] (stackW m c) transposes_S1024x512_S512x1024_1_0) slices_S512x1024_S256x1024_256_0 := by
  dsimp only [V, hostOps0]
  after_results
  rfl
/-- The bias row the region finds: the stacked bias as a one-row matrix. -/
theorem entry_b (c : Dev nD) : (V m c main_v5 : S1x1024.Idx → EReal)
    = shapeCast S1x1024 (stackB m c) shapeCasts_S1024_S1x1024 := by
  dsimp only [V, hostOps0]
  after_results_simp
  rfl

theorem wx_at (c : Dev nD) (k : Fin 256) (j : Fin 1024) :
    (V m c main_v2 : S256x1024.Idx → EReal) (ix2 k j) = stackW m c (ix2 j (inPart k)) := by
  rw [entry_wx]
  exact (slice2_axis0_apply 0 _ slices_S512x1024_S256x1024_0_0 k j (inPart k) (Nat.zero_add _).symm).trans
    (transpose_ix2_apply (stackW m c) transposes_S1024x512_S512x1024_1_0 (inPart k) j)
theorem wh_at (c : Dev nD) (k : Fin 256) (j : Fin 1024) :
    (V m c main_v3 : S256x1024.Idx → EReal) (ix2 k j) = stackW m c (ix2 j (hidPart k)) := by
  rw [entry_wh]
  exact (slice2_axis0_apply 256 _ slices_S512x1024_S256x1024_256_0 k j (hidPart k) rfl).trans
    (transpose_ix2_apply (stackW m c) transposes_S1024x512_S512x1024_1_0 (hidPart k) j)
theorem b_at (c : Dev nD) (j : Fin 1024) :
    (V m c main_v5 : S1x1024.Idx → EReal) (ix2 (0 : Fin 1) j) = stackB m c (ix1 j) := by
  rw [entry_b]
  exact shapeCast_a_1a_apply (stackB m c) shapeCasts_S1024_S1x1024 (0 : Fin 1) j

/-! ## The windows' block indices over the grid -/

/-- At point `t` the five row-blocked windows show block (t, 0) and the three whole-array windows block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `p` of block `t` is row 2048·t + p of the batch. -/
def rowOf (t : Fin cfg0.N) (p : Fin 2048) : Fin 131072 :=
  ⟨2048 * t.val + p.val, by have h : t.val < 64 := lt_of_lt_of_eq t.isLt N_0; have := p.isLt; omega⟩

/-! ## The input blocks read at an entry -/

theorem x_block (c : Dev nD) (t : Fin cfg0.N) (p : Fin 2048) (k : Fin 256) :
    (blockAt m c 0 t : Vec Ideal S2048x256 .f32) (ix2 p k)
      = (m ((c.tc : Thread nD τ).loc main_arg0) : S131072x256.Idx → EReal) (ix2 (rowOf t p) k) := by
  have hi := (block_indices t).1
  unfold blockAt
  rw [View.read_apply]
  show V m c main_arg0 _ = _
  rw [V_arg0]
  congr 1
  funext a
  apply Fin.ext
  match a with
  | ⟨0, _⟩ => show win0_0.index t (0 : Fin 2) * 2048 + 1 * p.val = 2048 * t.val + p.val; rw [hi.1]; omega
  | ⟨1, _⟩ => show win0_0.index t (1 : Fin 2) * 256 + 1 * k.val = k.val; rw [hi.2]; omega
theorem h_block (c : Dev nD) (t : Fin cfg0.N) (p : Fin 2048) (k : Fin 256) :
    (blockAt m c 1 t : Vec Ideal S2048x256 .f32) (ix2 p k)
      = (m ((c.tc : Thread nD τ).loc main_arg1) : S131072x256.Idx → EReal) (ix2 (rowOf t p) k) := by
  have hi := (block_indices t).2.1
  unfold blockAt
  rw [View.read_apply]
  show V m c main_arg1 _ = _
  rw [V_arg1]
  congr 1
  funext a
  apply Fin.ext
  match a with
  | ⟨0, _⟩ => show win0_1.index t (0 : Fin 2) * 2048 + 1 * p.val = 2048 * t.val + p.val; rw [hi.1]; omega
  | ⟨1, _⟩ => show win0_1.index t (1 : Fin 2) * 256 + 1 * k.val = k.val; rw [hi.2]; omega
theorem c_block (c : Dev nD) (t : Fin cfg0.N) (p : Fin 2048) (k : Fin 256) :
    (blockAt m c 2 t : Vec Ideal S2048x256 .f32) (ix2 p k)
      = (m ((c.tc : Thread nD τ).loc main_arg2) : S131072x256.Idx → EReal) (ix2 (rowOf t p) k) := by
  have hi := (block_indices t).2.2.1
  unfold blockAt
  rw [View.read_apply]
  show V m c main_arg2 _ = _
  rw [V_arg2]
  congr 1
  funext a
  apply Fin.ext
  match a with
  | ⟨0, _⟩ => show win0_2.index t (0 : Fin 2) * 2048 + 1 * p.val = 2048 * t.val + p.val; rw [hi.1]; omega
  | ⟨1, _⟩ => show win0_2.index t (1 : Fin 2) * 256 + 1 * k.val = k.val; rw [hi.2]; omega

theorem wx_block (c : Dev nD) (t : Fin cfg0.N) (k : Fin 256) (j : Fin 1024) :
    (blockAt m c 3 t : Vec Ideal S256x1024 .f32) (ix2 k j) = stackW m c (ix2 j (inPart k)) := by
  have hi := (block_indices t).2.2.2.1
  refine Eq.trans ?_ (wx_at m c k j)
  unfold blockAt
  rw [View.read_apply]
  show V m c main_v2 _ = V m c main_v2 _
  congr 1
  funext a
  apply Fin.ext
  match a with
  | ⟨0, _⟩ => show win0_3.index t (0 : Fin 2) * 256 + 1 * k.val = k.val; rw [hi.1]; omega
  | ⟨1, _⟩ => show win0_3.index t (1 : Fin 2) * 1024 + 1 * j.val = j.val; rw [hi.2]; omega
theorem wh_block (c : Dev nD) (t : Fin cfg0.N) (k : Fin 256) (j : Fin 1024) :
    (blockAt m c 4 t : Vec Ideal S256x1024 .f32) (ix2 k j) = stackW m c (ix2 j (hidPart k)) := by
  have hi := (block_indices t).2.2.2.2.1
  refine Eq.trans ?_ (wh_at m c k j)
  unfold blockAt
  rw [View.read_apply]
  show V m c main_v3 _ = V m c main_v3 _
  congr 1
  funext a
  apply Fin.ext
  match a with
  | ⟨0, _⟩ => show win0_4.index t (0 : Fin 2) * 256 + 1 * k.val = k.val; rw [hi.1]; omega
  | ⟨1, _⟩ => show win0_4.index t (1 : Fin 2) * 1024 + 1 * j.val = j.val; rw [hi.2]; omega
theorem b_block (c : Dev nD) (t : Fin cfg0.N) (j : Fin 1024) :
    (blockAt m c 5 t : Vec Ideal S1x1024 .f32) (ix2 (0 : Fin 1) j) = stackB m c (ix1 j) := by
  have hi := (block_indices t).2.2.2.2.2.1
  refine Eq.trans ?_ (b_at m c j)
  unfold blockAt
  rw [View.read_apply]
  show V m c main_v5 _ = V m c main_v5 _
  congr 1
  funext a
  apply Fin.ext
  match a with
  | ⟨0, _⟩ => show win0_5.index t (0 : Fin 2) * 1 + 1 * 0 = 0; rw [hi.1]
  | ⟨1, _⟩ => show win0_5.index t (1 : Fin 2) * 1024 + 1 * j.val = j.val; rw [hi.2]; omega

/-! ## What a point writes back is its block of the step's arrays -/

theorem zero_offsets : (![0, 0] : Fin 2 → Nat) = fun _ => 0 := funext fun a => by fin_cases a <;> rfl

/-- The body's stored values at any entry of the block, in terms of the block's step. -/
theorem hidden_entry (x h cPrev : FVec Ideal S2048x256 .f32) (wx wh : FVec Ideal S256x1024 .f32) (b : FVec Ideal S1x1024 .f32)
    (y : S2048x256.Idx) : k0_pay3 (F := Ideal) x h wx wh b cPrev y = blockHidden x h cPrev wx wh b (y 0) (y 1) := by
  obtain ⟨p, q, rfl⟩ : ∃ (p : Fin 2048) (q : Fin 256), y = ix2 p q := ⟨y 0, y 1, eq_ix2 y⟩
  exact hidden_at x h cPrev wx wh b p q
theorem cell_entry (x h cPrev : FVec Ideal S2048x256 .f32) (wx wh : FVec Ideal S256x1024 .f32) (b : FVec Ideal S1x1024 .f32)
    (y : S2048x256.Idx) : k0_pay2 (F := Ideal) x h wx wh b cPrev y = blockCell x h cPrev wx wh b (y 0) (y 1) := by
  obtain ⟨p, q, rfl⟩ : ∃ (p : Fin 2048) (q : Fin 256), y = ix2 p q := ⟨y 0, y 1, eq_ix2 y⟩
  exact cell_at x h cPrev wx wh b p q

/-- An entry of output block `t` sits in the result array at row 2048·t + (its row), same column. -/
theorem hidden_emb (t : Fin cfg0.N) (y : S2048x256.Idx) :
    (((cfg0.win 6).blk t).view.emb y : S131072x256.Idx) = ix2 (rowOf t (y 0)) (y 1) := by
  have hi := (block_indices t).2.2.2.2.2.2.1
  funext a
  apply Fin.ext
  match a with
  | ⟨0, _⟩ => show win0_6.index t (0 : Fin 2) * 2048 + 1 * (y 0).val = 2048 * t.val + (y 0).val; rw [hi.1]; omega
  | ⟨1, _⟩ => show win0_6.index t (1 : Fin 2) * 256 + 1 * (y 1).val = (y 1).val; rw [hi.2]; omega
theorem cell_emb (t : Fin cfg0.N) (y : S2048x256.Idx) :
    (((cfg0.win 7).blk t).view.emb y : S131072x256.Idx) = ix2 (rowOf t (y 0)) (y 1) := by
  have hi := (block_indices t).2.2.2.2.2.2.2
  funext a
  apply Fin.ext
  match a with
  | ⟨0, _⟩ => show win0_7.index t (0 : Fin 2) * 2048 + 1 * (y 0).val = 2048 * t.val + (y 0).val; rw [hi.1]; omega
  | ⟨1, _⟩ => show win0_7.index t (1 : Fin 2) * 256 + 1 * (y 1).val = (y 1).val; rw [hi.2]; omega

/-- What point `t` writes back to the hidden-state array is block `t` of the step's hidden state. -/
theorem flushed_hidden (c : Dev nD) (t : Fin cfg0.N) :
    (dats m 0 c).flushed 6 t = ((cfg0.win 6).blk t).view.read (Elt Ideal) (hiddenArray (m ((c.tc : Thread nD τ).loc main_arg0)) (m ((c.tc : Thread nD τ).loc main_arg1)) (m ((c.tc : Thread nD τ).loc main_arg2)) (stackW m c) (stackB m c)) := by
  show (cfg0.win 6).cut (grid0.coords t) ((dats m 0 c).after 6 t) = _
  rw [after_hidden]
  unfold hiddenOut
  rw [View.canon_unit_zero zero_offsets]
  simp only [View.ld_unit_zero (S := S2048x256) zero_offsets, View.ld_unit_zero (S := S256x1024) zero_offsets,
    View.ld_unit_zero (S := S1x1024) zero_offsets]
  funext y
  show k0_pay3 (F := Ideal) (blockAt m c 0 t) (blockAt m c 1 t) (blockAt m c 3 t) (blockAt m c 4 t) (blockAt m c 5 t) (blockAt m c 2 t) y
    = hiddenArray (m ((c.tc : Thread nD τ).loc main_arg0)) (m ((c.tc : Thread nD τ).loc main_arg1)) (m ((c.tc : Thread nD τ).loc main_arg2)) (stackW m c) (stackB m c) (((cfg0.win 6).blk t).view.emb y)
  rw [hidden_emb t y]
  exact (hidden_entry (blockAt m c 0 t) (blockAt m c 1 t) (blockAt m c 2 t) (blockAt m c 3 t) (blockAt m c 4 t) (blockAt m c 5 t) y).trans
    (blockHidden_of (blockAt m c 0 t) (blockAt m c 1 t) (blockAt m c 2 t) (blockAt m c 3 t) (blockAt m c 4 t) (blockAt m c 5 t) (m ((c.tc : Thread nD τ).loc main_arg0)) (m ((c.tc : Thread nD τ).loc main_arg1)) (m ((c.tc : Thread nD τ).loc main_arg2)) (stackW m c) (stackB m c) (rowOf t (y 0)) (y 0)
      (fun k => x_block m c t (y 0) k) (fun k => h_block m c t (y 0) k) (fun q => c_block m c t (y 0) q)
      (fun k j => wx_block m c t k j) (fun k j => wh_block m c t k j) (fun j => b_block m c t j) (y 1))

/-- What point `t` writes back to the cell-state array is block `t` of the step's cell state. -/
theorem flushed_cell (c : Dev nD) (t : Fin cfg0.N) :
    (dats m 0 c).flushed 7 t = ((cfg0.win 7).blk t).view.read (Elt Ideal) (cellArray (m ((c.tc : Thread nD τ).loc main_arg0)) (m ((c.tc : Thread nD τ).loc main_arg1)) (m ((c.tc : Thread nD τ).loc main_arg2)) (stackW m c) (stackB m c)) := by
  show (cfg0.win 7).cut (grid0.coords t) ((dats m 0 c).after 7 t) = _
  rw [after_cell]
  unfold cellOut
  rw [View.canon_unit_zero zero_offsets]
  simp only [View.ld_unit_zero (S := S2048x256) zero_offsets, View.ld_unit_zero (S := S256x1024) zero_offsets,
    View.ld_unit_zero (S := S1x1024) zero_offsets]
  funext y
  show k0_pay2 (F := Ideal) (blockAt m c 0 t) (blockAt m c 1 t) (blockAt m c 3 t) (blockAt m c 4 t) (blockAt m c 5 t) (blockAt m c 2 t) y
    = cellArray (m ((c.tc : Thread nD τ).loc main_arg0)) (m ((c.tc : Thread nD τ).loc main_arg1)) (m ((c.tc : Thread nD τ).loc main_arg2)) (stackW m c) (stackB m c) (((cfg0.win 7).blk t).view.emb y)
  rw [cell_emb t y]
  exact (cell_entry (blockAt m c 0 t) (blockAt m c 1 t) (blockAt m c 2 t) (blockAt m c 3 t) (blockAt m c 4 t) (blockAt m c 5 t) y).trans
    (blockCell_of (blockAt m c 0 t) (blockAt m c 1 t) (blockAt m c 2 t) (blockAt m c 3 t) (blockAt m c 4 t) (blockAt m c 5 t) (m ((c.tc : Thread nD τ).loc main_arg0)) (m ((c.tc : Thread nD τ).loc main_arg1)) (m ((c.tc : Thread nD τ).loc main_arg2)) (stackW m c) (stackB m c) (rowOf t (y 0)) (y 0)
      (fun k => x_block m c t (y 0) k) (fun k => h_block m c t (y 0) k) (fun q => c_block m c t (y 0) q)
      (fun k j => wx_block m c t k j) (fun k j => wh_block m c t k j) (fun j => b_block m c t j) (y 1))

/-! ## The 64 blocks cover every row -/

theorem mem_hidden_block (t : Fin cfg0.N) (i : S131072x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v6_0).slice (win0_6.rect t)).set ↔ _
  rw [View.set_slice_whole, Rect.mem_set_unit]
  exact Iff.rfl
theorem mem_cell_block (t : Fin cfg0.N) (i : S131072x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v6_1).slice (win0_7.rect t)).set ↔ _
  rw [View.set_slice_whole, Rect.mem_set_unit]
  exact Iff.rfl

/-- The point whose block holds row `r`: `r / 2048`. -/
def pointOf (i : S131072x256.Idx) : Fin cfg0.N :=
  ⟨(i 0).val / 2048, by have h : (i 0).val < 131072 := (i 0).isLt; rw [show cfg0.N = 64 from N_0]; omega⟩

theorem hidden_covered (i : S131072x256.Idx) :
    ∃ t : Fin cfg0.N, (cfg0.win 6).flush t = true ∧ i ∈ ((cfg0.win 6).blk t).view.set := by
  have hi := (block_indices (pointOf i)).2.2.2.2.2.2.1
  have h0 : (i 0).val < 131072 := (i 0).isLt
  have h1 : (i 1).val < 256 := (i 1).isLt
  have hp : (pointOf i).val = (i 0).val / 2048 := rfl
  refine ⟨pointOf i, flush0_6 (pointOf i), ?_⟩
  rw [mem_hidden_block]
  intro a
  match a with
  | ⟨0, _⟩ =>
    show win0_6.index (pointOf i) (0 : Fin 2) * 2048 ≤ (i 0).val ∧ (i 0).val < win0_6.index (pointOf i) (0 : Fin 2) * 2048 + 2048
    rw [hi.1, hp]; omega
  | ⟨1, _⟩ =>
    show win0_6.index (pointOf i) (1 : Fin 2) * 256 ≤ (i 1).val ∧ (i 1).val < win0_6.index (pointOf i) (1 : Fin 2) * 256 + 256
    rw [hi.2]; omega
theorem cell_covered (i : S131072x256.Idx) :
    ∃ t : Fin cfg0.N, (cfg0.win 7).flush t = true ∧ i ∈ ((cfg0.win 7).blk t).view.set := by
  have hi := (block_indices (pointOf i)).2.2.2.2.2.2.2
  have h0 : (i 0).val < 131072 := (i 0).isLt
  have h1 : (i 1).val < 256 := (i 1).isLt
  have hp : (pointOf i).val = (i 0).val / 2048 := rfl
  refine ⟨pointOf i, flush0_7 (pointOf i), ?_⟩
  rw [mem_cell_block]
  intro a
  match a with
  | ⟨0, _⟩ =>
    show win0_7.index (pointOf i) (0 : Fin 2) * 2048 ≤ (i 0).val ∧ (i 0).val < win0_7.index (pointOf i) (0 : Fin 2) * 2048 + 2048
    rw [hi.1, hp]; omega
  | ⟨1, _⟩ =>
    show win0_7.index (pointOf i) (1 : Fin 2) * 256 ≤ (i 1).val ∧ (i 1).val < win0_7.index (pointOf i) (1 : Fin 2) * 256 + 256
    rw [hi.2]; omega

/-! ## The two result arrays after the run -/

theorem final_hidden (c : Dev nD) : (dats m 0 c).arrAt 6 cfg0.N = hiddenArray (m ((c.tc : Thread nD τ).loc main_arg0)) (m ((c.tc : Thread nD τ).loc main_arg1)) (m ((c.tc : Thread nD τ).loc main_arg2)) (stackW m c) (stackB m c) :=
  (dats m 0 c).arrAt_eq_of_cover 6 (hiddenArray (m ((c.tc : Thread nD τ).loc main_arg0)) (m ((c.tc : Thread nD τ).loc main_arg1)) (m ((c.tc : Thread nD τ).loc main_arg2)) (stackW m c) (stackB m c)) (fun t _ => flushed_hidden m c t) hidden_covered
theorem final_cell (c : Dev nD) : (dats m 0 c).arrAt 7 cfg0.N = cellArray (m ((c.tc : Thread nD τ).loc main_arg0)) (m ((c.tc : Thread nD τ).loc main_arg1)) (m ((c.tc : Thread nD τ).loc main_arg2)) (stackW m c) (stackB m c) :=
  (dats m 0 c).arrAt_eq_of_cover 7 (cellArray (m ((c.tc : Thread nD τ).loc main_arg0)) (m ((c.tc : Thread nD τ).loc main_arg1)) (m ((c.tc : Thread nD τ).loc main_arg2)) (stackW m c) (stackB m c)) (fun t _ => flushed_cell m c t) cell_covered

/-- Every weakly fair execution of the idealized kernel terminates with the two results at the LSTM step of the arguments and
    the arguments as launched. -/
theorem run : θ_run defs (onTc (τ := τ) (main (F := Ideal))) ⟨m, fun _ => 0, ρ⟩ fun r => ∀ c : Dev nD,
      r.2.mem ((c.tc : Thread nD τ).loc main_v6_0) = hiddenArray (m ((c.tc : Thread nD τ).loc main_arg0)) (m ((c.tc : Thread nD τ).loc main_arg1)) (m ((c.tc : Thread nD τ).loc main_arg2)) (stackW m c) (stackB m c)
      ∧ r.2.mem ((c.tc : Thread nD τ).loc main_v6_1) = cellArray (m ((c.tc : Thread nD τ).loc main_arg0)) (m ((c.tc : Thread nD τ).loc main_arg1)) (m ((c.tc : Thread nD τ).loc main_arg2)) (stackW m c) (stackB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 6).trans (final_hidden m c), ((h c).1 7).trans (final_cell m c),
      args_kept m (dats m) (arrays_eq m) r h c⟩)
    (run_main m ρ)

end Cert.KernelIdeal.ArrayStep

end
-- ==== Proof.RefStep.lean ====
/-
  The reference program computes the LSTM step of `Cert.LstmStep`, entry by entry.

  The reference joins x and h side by side into a 131072×512 matrix, contracts it in ONE sum over 512 positions against the
  transposed stack of gate matrices, adds the stacked bias to every row, cuts the result into the four gates' 256 columns,
  writes each logistic as 1 / (1 + exp(−z)), and combines the gates. Read at an entry: a position below 256 of the joined
  matrix is an entry of x and a position from 256 on is an entry of h; the transposed stack at (k, j) is the stack at (j, k);
  the 512-term sum splits into its input half and its hidden half; and 1 / (1 + exp(−z)) is the logistic function by
  definition, the literal 1.0 denoting the real number 1.
-/
import proofs.«154916_j28913719836975_2_alg».proof.Proof.Gen.ReferenceIdeal.Read
import proofs.«154916_j28913719836975_2_alg».proof.Proof.Spec
import Idealize.ShloMosaic.Lib.Pipeline.Value
import Idealize.ShloMosaic.PureOps.IdealRules

noncomputable section

namespace Cert.ReferenceIdeal.StepValue

open Cert.ReferenceIdeal Cert.ReferenceIdeal.Read Cert.LstmStep
open Idealize.ShloMosaic Idealize.ShloMosaic.ValueIdx

/-- The float literal 1.0 denotes the real number 1. -/
theorem one_word : Ideal.ofBits .f32 0x3F800000#32 = 1 := IdealRules.sign_bit.ideal_onePat .f32

/-- The joined matrix at a position of its first half is an entry of x. -/
theorem joined_in (x0 x1 : (⟨S131072x256, .f32⟩ : BufTy).Contents (Elt Ideal)) (r : Fin 131072) (j : Fin 1024) (k : Fin 256) :
    val_main_v0 (F := Ideal) x0 x1 (lidx_main_v4 (ix2 r j) (inPart k)) = x0 (ix2 r k) := by
  unfold val_main_v0
  exact concatenate_pair_apply_left (t := S131072x512) (s₁ := S131072x256) (s₂ := S131072x256) (1 : Fin 2) x0 x1 _
    (lidx_main_v4 (ix2 r j) (inPart k)) rfl (ix2 r k) (fun b => match b with | ⟨0, _⟩ => rfl | ⟨1, _⟩ => rfl)

/-- The joined matrix at a position of its second half is an entry of h. -/
theorem joined_hid (x0 x1 : (⟨S131072x256, .f32⟩ : BufTy).Contents (Elt Ideal)) (r : Fin 131072) (j : Fin 1024) (k : Fin 256) :
    val_main_v0 (F := Ideal) x0 x1 (lidx_main_v4 (ix2 r j) (hidPart k)) = x1 (ix2 r k) := by
  unfold val_main_v0
  exact concatenate_pair_apply_right (t := S131072x512) (s₁ := S131072x256) (s₂ := S131072x256) (1 : Fin 2) x0 x1 _
    (lidx_main_v4 (ix2 r j) (hidPart k)) rfl rfl (ix2 r k)
    (fun b => match b with | ⟨0, _⟩ => fun _ => rfl | ⟨1, _⟩ => fun hne => absurd rfl hne)
    (by show k.val + 256 = 256 + k.val; omega)

/-- The transposed stack at (k, j) is the stack at (j, k). -/
theorem stack_transposed (x5 x7 x9 x11 : (⟨S256x512, .f32⟩ : BufTy).Contents (Elt Ideal)) (r : Fin 131072) (j : Fin 1024) (k : Fin 512) :
    val_main_v3 (F := Ideal) x5 x7 x9 x11 (ridx_main_v4 (ix2 r j) k) = val_main_v1 (F := Ideal) x5 x7 x9 x11 (ix2 j k) := by
  rw [val_main_v3_apply]
  exact congrArg _ (funext fun a => match a with | ⟨0, _⟩ => rfl | ⟨1, _⟩ => rfl)

/-- The bias added at (r, j) is the stacked bias at j. -/
theorem bias_row (x6 x8 x10 x12 : (⟨S256, .f32⟩ : BufTy).Contents (Elt Ideal)) (r : Fin 131072) (j : Fin 1024) :
    val_main_v6 (F := Ideal) x6 x8 x10 x12 (ix2 r j) = val_main_v2 (F := Ideal) x6 x8 x10 x12 (ix1 j) := by
  rw [val_main_v6_apply, val_main_v5_apply]
  exact congrArg _ (funext fun a => match a with | ⟨0, _⟩ => rfl)

/-- The reference's pre-activations are the specification's. -/
theorem ref_preact (x0 x1 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (j : Fin 1024) :
    val_main_v7 (F := Ideal) x0 x1 x5 x6 x7 x8 x9 x10 x11 x12 (ix2 r j)
      = preact x0 x1 (val_main_v1 (F := Ideal) x5 x7 x9 x11) (val_main_v2 (F := Ideal) x6 x8 x10 x12) r j := by
  rw [val_main_v7_apply, val_main_v4_apply, bias_row, sum_in_hid]
  unfold preact
  simp only [joined_in, joined_hid, stack_transposed]
  rfl

/-- The four gates' columns of the sliced pre-activations. -/
theorem ref_gateI (x0 x1 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v8 (F := Ideal) x0 x1 x5 x6 x7 x8 x9 x10 x11 x12 (ix2 r q) = val_main_v7 (F := Ideal) x0 x1 x5 x6 x7 x8 x9 x10 x11 x12 (ix2 r (colI q)) := by
  rw [val_main_v8_apply]
  exact congrArg _ (funext fun a => match a with | ⟨0, _⟩ => rfl | ⟨1, _⟩ => rfl)
theorem ref_gateF (x0 x1 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v9 (F := Ideal) x0 x1 x5 x6 x7 x8 x9 x10 x11 x12 (ix2 r q) = val_main_v7 (F := Ideal) x0 x1 x5 x6 x7 x8 x9 x10 x11 x12 (ix2 r (colF q)) := by
  rw [val_main_v9_apply]
  exact congrArg _ (funext fun a => match a with | ⟨0, _⟩ => rfl | ⟨1, _⟩ => rfl)
theorem ref_gateO (x0 x1 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v10 (F := Ideal) x0 x1 x5 x6 x7 x8 x9 x10 x11 x12 (ix2 r q) = val_main_v7 (F := Ideal) x0 x1 x5 x6 x7 x8 x9 x10 x11 x12 (ix2 r (colO q)) := by
  rw [val_main_v10_apply]
  exact congrArg _ (funext fun a => match a with | ⟨0, _⟩ => rfl | ⟨1, _⟩ => rfl)
theorem ref_gateG (x0 x1 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v11 (F := Ideal) x0 x1 x5 x6 x7 x8 x9 x10 x11 x12 (ix2 r q) = val_main_v7 (F := Ideal) x0 x1 x5 x6 x7 x8 x9 x10 x11 x12 (ix2 r (colG q)) := by
  rw [val_main_v11_apply]
  exact congrArg _ (funext fun a => match a with | ⟨0, _⟩ => rfl | ⟨1, _⟩ => rfl)

/-- The reference's new cell state at an entry. -/
theorem ref_cell_at (x0 x1 x2 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v33 (F := Ideal) x0 x1 x2 x5 x6 x7 x8 x9 x10 x11 x12 (ix2 r q)
      = cellNext x0 x1 x2 (val_main_v1 (F := Ideal) x5 x7 x9 x11) (val_main_v2 (F := Ideal) x6 x8 x10 x12) r q := by
  simp only [val_main_v33_apply, val_main_v31_apply, val_main_v32_apply, val_main_v23_apply, val_main_v22_apply,
    val_main_cst_2_apply, val_main_v21_apply, val_main_v20_apply, val_main_cst_1_apply, val_main_v19_apply, val_main_v18_apply,
    val_main_v17_apply, val_main_v16_apply, val_main_cst_0_apply, val_main_v15_apply, val_main_v14_apply, val_main_cst_apply,
    val_main_v13_apply, val_main_v12_apply, val_main_v30_apply, ref_gateI, ref_gateF, ref_gateG, ref_preact]
  simp only [Ideal.addf_def, Ideal.mulf_def, Ideal.hostDivf_def, Ideal.hostUnary_exp_def, Ideal.hostUnary_tanh_def,
    Ideal.hostNegf_def, Ideal.negf_def, Ideal.ofBits_def, one_word]
  rfl

/-- The reference's new hidden state at an entry. -/
theorem ref_hidden_at (x0 x1 x2 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) (r : Fin 131072) (q : Fin 256) :
    val_main_v35 (F := Ideal) x0 x1 x2 x5 x6 x7 x8 x9 x10 x11 x12 (ix2 r q)
      = hiddenNext x0 x1 x2 (val_main_v1 (F := Ideal) x5 x7 x9 x11) (val_main_v2 (F := Ideal) x6 x8 x10 x12) r q := by
  rw [val_main_v35_apply, val_main_v34_apply, ref_cell_at]
  simp only [val_main_v29_apply, val_main_v28_apply, val_main_cst_4_apply, val_main_v27_apply, val_main_v26_apply,
    val_main_cst_3_apply, val_main_v25_apply, val_main_v24_apply, ref_gateO, ref_preact]
  simp only [Ideal.addf_def, Ideal.mulf_def, Ideal.hostDivf_def, Ideal.hostUnary_exp_def, Ideal.hostUnary_tanh_def,
    Ideal.hostNegf_def, Ideal.negf_def, Ideal.ofBits_def, one_word]
  rfl

/-- The reference's two results are the specification's two arrays. -/
theorem ref_cell (x0 x1 x2 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) :
    val_main_v33 (F := Ideal) x0 x1 x2 x5 x6 x7 x8 x9 x10 x11 x12
      = cellArray x0 x1 x2 (val_main_v1 (F := Ideal) x5 x7 x9 x11) (val_main_v2 (F := Ideal) x6 x8 x10 x12) := by
  funext i
  obtain ⟨r, q, rfl⟩ : ∃ (r : Fin 131072) (q : Fin 256), i = ix2 r q := ⟨i 0, i 1, eq_ix2 i⟩
  exact ref_cell_at x0 x1 x2 x5 x7 x9 x11 x6 x8 x10 x12 r q
theorem ref_hidden (x0 x1 x2 : (⟨S131072x256, .f32⟩ : BufTy).Contents (Elt Ideal)) (x5 x7 x9 x11 : (⟨S256x512, .f32⟩ : BufTy).Contents (Elt Ideal)) (x6 x8 x10 x12 : (⟨S256, .f32⟩ : BufTy).Contents (Elt Ideal)) :
    val_main_v35 (F := Ideal) x0 x1 x2 x5 x6 x7 x8 x9 x10 x11 x12
      = hiddenArray x0 x1 x2 (val_main_v1 (F := Ideal) x5 x7 x9 x11) (val_main_v2 (F := Ideal) x6 x8 x10 x12) := by
  funext i
  obtain ⟨r, q, rfl⟩ : ∃ (r : Fin 131072) (q : Fin 256), i = ix2 r q := ⟨i 0, i 1, eq_ix2 i⟩
  exact ref_hidden_at x0 x1 x2 x5 x7 x9 x11 x6 x8 x10 x12 r q

end Cert.ReferenceIdeal.StepValue

end
-- ==== Proof.lean ====
/-
  One step of an LSTM cell over a batch of 131072 rows, as a pipelined kernel, against its plain jnp reference.

  The kernel joins the four gate matrices by rows, transposes the stack and hands its upper and lower halves, with the joined
  bias, to a region of 64 grid points; each point takes 2048 rows of x, h and c, forms the gates' pre-activations as
  x·Wx + h·Wh + b with two 256-term products, and writes 2048 rows of the new hidden and cell states. The reference joins x and h
  side by side and contracts all 512 positions against the same transposed stack in one product. On the extended reals the
  two agree entry by entry: the 512-term sum is the sum of its two 256-term halves (true in any commutative monoid, so the
  inputs' finiteness is never used), the logistic function is 1 / (1 + exp(−z)) by definition, and tanh is one function on
  both sides. The idealization rewrote nothing, so it is the program's own text read on the extended reals.

  The three programs' runs: the word-level kernel and its idealization each terminate, fault nowhere and leave their thirteen
  arguments as launched (`Body.frame`, the same argument at both float instances); the reference is a straight line of host
  operations whose run is read back operation by operation.
-/
import proofs.«154916_j28913719836975_2_alg».proof.Defs
import proofs.«154916_j28913719836975_2_alg».proof.Proof.Gen.Kernel
import proofs.«154916_j28913719836975_2_alg».proof.Proof.Gen.KernelIdeal
import proofs.«154916_j28913719836975_2_alg».proof.Proof.Gen.ReferenceIdeal
import proofs.«154916_j28913719836975_2_alg».proof.Proof.Gen.Pre_finite_inputs
import proofs.«154916_j28913719836975_2_alg».proof.Proof.Gen.ReferenceIdeal.Run
import proofs.«154916_j28913719836975_2_alg».proof.Proof.Gen.ReferenceIdeal.Read
import proofs.«154916_j28913719836975_2_alg».proof.Proof.BodyBits
import proofs.«154916_j28913719836975_2_alg».proof.Proof.ArrayStep
import proofs.«154916_j28913719836975_2_alg».proof.Proof.RefStep
import Idealize.ShloMosaic.Adequacy
import Idealize.ShloMosaic.Init

noncomputable section

namespace Cert.Proof

open Idealize.ShloMosaic Idealize.SL.Sem Cert.LstmStep

/-- The word-level kernel runs to the end, faults nowhere and leaves its arguments unchanged. -/
theorem frame_kernel : Cert.frame_Kernel := fun m ρ _ => Cert.Kernel.Body.frame m ρ

/-- So does its idealization. -/
theorem frame_kernel_ideal : Cert.frame_KernelIdeal := fun m ρ _ => Cert.KernelIdeal.Body.frame m ρ

/-- The reference's run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, both idealized programs end with the new hidden state and the new cell state of
    the LSTM step of those arguments, on every device. -/
theorem algebraic : Cert.algebraic_KernelIdeal_ReferenceIdeal := by
  intro m ρ m' ρ' _ hagree
  refine ⟨fun c => hiddenArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayStep.stackW m c) (Cert.KernelIdeal.ArrayStep.stackB m c),
    fun c => cellArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayStep.stackW m c) (Cert.KernelIdeal.ArrayStep.stackB m c),
    Cert.KernelIdeal.ArrayStep.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12⟩ := hagree c
    rw [(h c).1, Cert.ReferenceIdeal.Read.val_main_v35_eq, Cert.ReferenceIdeal.StepValue.ref_hidden,
      a0, a1, a2, a5, a6, a7, a8, a9, a10, a11, a12]
    rfl
  · obtain ⟨a0, a1, a2, a3, a4, a5, a6, a7, a8, a9, a10, a11, a12⟩ := hagree c
    rw [(h c).2.1, Cert.ReferenceIdeal.Read.val_main_v33_eq, Cert.ReferenceIdeal.StepValue.ref_cell,
      a0, a1, a2, a5, a6, a7, a8, a9, a10, a11, a12]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
